-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S16800x128 : Shape := ⟨2, ![16800, 128]⟩

abbrev nBuf : Space → Nat
  | .hbm => 3
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x128, .f32⟩
  | .local _ .vmem, ⟨0, _⟩ => ⟨S16800x128, .f32⟩
  | .local _ .vmem, ⟨1, _⟩ => ⟨S16800x128, .f32⟩
  | .local _ .vmem, ⟨2, _⟩ => ⟨S128x128, .f32⟩
  | .local _ .vmem, ⟨3, _⟩ => ⟨S16800x128, .f32⟩
  | .local _ .vmem, ⟨4, _⟩ => ⟨S16800x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16800x128_S16800x128_0_0 : ∀ a, (![0, 0] : Fin 2 → Nat) a + S16800x128.size a ≤ S16800x128.size a
  h_S16800x128 : 0 < S16800x128.numel
  inb_S128x128_S128x128_0_0 : ∀ a, (![0, 0] : Fin 2 → Nat) a + S128x128.size a ≤ S128x128.size a
  h_S128x128 : 0 < S128x128.numel
  dot_S16800x128_S128x128_S16800x128_1_1_0_0_n_n_wf : DotDims.WF S16800x128 S128x128 S16800x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16800x128.size a < S100000x128.size a
  hwx0_0 : ∀ i : grid0.Coords, EltTy.bits .f32 = 32 ∨ (Rect.unit (s := S100000x128) (fun a => cc0_transform_0 i a * S16800x128.size a) (fun a => (Pipeline.Clip.of (cc0_transform_0 i a) (S16800x128.size a) (S100000x128.size a)).extent (S16800x128.size a)) fun a => Pipeline.Clip.inb (Pipeline.Clip.ok_of (hstart0_0 i a))).WholeWords (EltTy.packing .f32)
  hwxs0_0 : ∀ i : grid0.Coords, EltTy.bits .f32 = 32 ∨ (Rect.unit (s := S16800x128) (fun _ => 0) (fun a => (Pipeline.Clip.of (cc0_transform_0 i a) (S16800x128.size a) (S100000x128.size a)).extent (S16800x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16800x128.size a < S100000x128.size a
  hwx0_2 : ∀ i : grid0.Coords, EltTy.bits .f32 = 32 ∨ (Rect.unit (s := S100000x128) (fun a => cc0_transform_2 i a * S16800x128.size a) (fun a => (Pipeline.Clip.of (cc0_transform_2 i a) (S16800x128.size a) (S100000x128.size a)).extent (S16800x128.size a)) fun a => Pipeline.Clip.inb (Pipeline.Clip.ok_of (hstart0_2 i a))).WholeWords (EltTy.packing .f32)
  hwxs0_2 : ∀ i : grid0.Coords, EltTy.bits .f32 = 32 ∨ (Rect.unit (s := S16800x128) (fun _ => 0) (fun a => (Pipeline.Clip.of (cc0_transform_2 i a) (S16800x128.size a) (S100000x128.size a)).extent (S16800x128.size a)) fun a => (Nat.zero_add _).trans_le (Pipeline.Clip.extent_le (Pipeline.Clip.ok_of (hstart0_2 i a)))).WholeWords (EltTy.packing .f32)

variable [Facts₀]

def dot_S16800x128_S128x128_S16800x128_1_1_0_0_n_n : DotDims S16800x128 S128x128 S16800x128 where
  lhsContracting := [1]
  rhsContracting := [1]
  lhsNonContracting := [0]
  rhsNonContracting := [0]
  lhsBatch := []
  rhsBatch := []
  wf := dot_S16800x128_S128x128_S16800x128_1_1_0_0_n_n_wf

abbrev win0_0 : Pipeline.Window sig grid0 :=
  Pipeline.Window.ofSpecClip (Memref.whole main_arg0) S16800x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16800x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x128_S128x128_1_0 : S128x128.Transposes [1, 0] S128x128
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelBody.lean ====
/-
  The kernel body on any whole staging buffers. The body reads the whole row block `x` (16800 × 128) and the whole
  weight matrix `w` (128 × 128), reads the result buffer once without using the value, and stores the matrix
  product of the two — contracted over the second axis of each, into a zero accumulator — over the whole result
  buffer. So after the body the two input buffers hold what they held and the result buffer holds that product
  of them, whatever it held before.
-/
import proofs.«143191_g506806141100_cont_8to1_c_524_16_alg».proof.Proof.Gen.Kernel.Frame
import proofs.«143191_g506806141100_cont_8to1_c_524_16_alg».proof.Proof.Gen.Kernel.Skeleton
import Idealize.ShloMosaic.Lib.Pipeline.Value

set_option maxRecDepth 65536

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole row block as a rectangle of itself, and the whole weight matrix as one of itself. -/
abbrev rX : Rect S16800x128 := Rect.unit (s := S16800x128) ![0, 0] S16800x128.size inb_S16800x128_S16800x128_0_0
abbrev rW : Rect S128x128 := Rect.unit (s := S128x128) ![0, 0] S128x128.size inb_S128x128_S128x128_0_0

/-- Both rectangles start at the origin. -/
theorem origin : (![0, 0] : Fin 2 → Nat) = fun _ => 0 := funext fun a => by fin_cases a <;> rfl

/-- What the one store leaves in the result buffer, as the list of stores read back: the product of what the two
    loads read. -/
def stored (x : Vec F S16800x128 .f32) (w : Vec F S128x128 .f32) : Vec F S16800x128 .f32 :=
  View.canon [⟨rX, k0_pay1 (View.ld x rX) (View.ld w rW)⟩]

/-- The loads read the whole buffers and the store covers the whole result buffer: it holds the product. -/
theorem stored_eq (x : Vec F S16800x128 .f32) (w : Vec F S128x128 .f32) : stored x w = k0_pay1 x w := by
  unfold stored
  rw [View.canon_unit_zero origin, View.ld_unit_zero origin, View.ld_unit_zero origin]

/-- The one store covers the result buffer. -/
theorem cover (p : Vec F S16800x128 .f32) (y : S16800x128.Idx) :
    ∃ pc ∈ ([⟨rX, p⟩] : List (View.Piece (Elt F) S16800x128 .f32)), y ∈ pc.1.set :=
  ⟨⟨rX, p⟩, List.mem_singleton_self _, View.mem_set_unit_zero origin inb_S16800x128_S16800x128_0_0 y⟩

set_option maxHeartbeats 1000000 in
/-- The body's triple: from the row block at `x`, the weights at `w` and the result buffer at anything, the body
    runs to the same two and the result buffer at their product. -/
theorem sound_kernel (c : Dev nD) (E : Set ℕ) (i : grid0.Coords)
    (arg1 : Memref sig .tc .vmem S16800x128 .f32) (harg1 : arg1.IsWhole)
    (arg2 : Memref sig .tc .vmem S128x128 .f32) (harg2 : arg2.IsWhole)
    (arg3 : Memref sig .tc .vmem S16800x128 .f32) (harg3 : arg3.IsWhole)
    (x : Vec F S16800x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The same, the result buffer's contents written as the product. -/
theorem sound_kernel' (c : Dev nD) (E : Set ℕ) (i : grid0.Coords)
    (arg1 : Memref sig .tc .vmem S16800x128 .f32) (harg1 : arg1.IsWhole)
    (arg2 : Memref sig .tc .vmem S128x128 .f32) (harg2 : arg2.IsWhole)
    (arg3 : Memref sig .tc .vmem S16800x128 .f32) (harg3 : arg3.IsWhole)
    (x : Vec F S16800x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__mm_kernel i arg1 harg1 arg2 harg2 arg3 harg3) K := by
  rw [← stored_eq x w]
  exact sound_kernel c E i arg1 harg1 arg2 harg2 arg3 harg3 x w K

end Cert.Kernel.Body

end
-- ==== Proof.KernelFrame.lean ====
/-
  The frame of the kernel as printed, at any float instance: it runs to the end, faults nowhere and leaves its two
  arguments as they were. Nothing is said here of what the result holds: at each block the body is handed the
  result's staging buffer at any contents and hands it back at some contents, and the write-backs overwrite the
  result array and nothing else. The row block's buffer holds the array's rows of the block and anything past
  the array's end, before the body and after it; the weights' buffer holds the weights throughout.
-/
import proofs.«143191_g506806141100_cont_8to1_c_524_16_alg».proof.Proof.KernelBody
import proofs.«143191_g506806141100_cont_8to1_c_524_16_alg».proof.Proof.Gen.Kernel.Points
import Idealize.ShloMosaic.Lib.Pipeline.Frame

set_option maxRecDepth 65536

noncomputable section

namespace Cert.Kernel.FrameRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window is the one whose contents are not named. -/
def unnamedOut : Fin 3 → Bool := fun | 0 => false | 1 => false | 2 => true | ⟨_ + 3, h⟩ => absurd h (Nat.not_lt.2 (Nat.le_add_left _ _))

/-- The result is never fetched. -/
theorem fetch_2 : ∀ t : Fin cfg0.N, (cfg0.win 2).fetch t = false :=
  (by decide +kernel : ∀ t : Fin grid0.N, win0_2.fetch t = false)

/-- The row block at block `t`: the array's rows there, filled out past the array's end with values nothing reads. -/
def rows (c : Dev nD) (t : Fin cfg0.N) : Vec F S16800x128 .f32 :=
  win0_0.fill (grid0.coords t) (Pipeline.Dat.unnamed (cfg := cfg0) 0 t) (iblk m c 0 t)

/-- After the body at block `t`: the row block's buffer holds the row block, the weights' buffer the weights; the
    result's buffer is not named. -/
def dats (_ : Fin 1) (c : Dev nD) : Dat τ (Elt F) Unit ℕ (UR sig nD τ) ℕ cfg0 c where
  A w := V m c (Pipeline.arrRef spec0 w)
  after w t := match w with
    | ⟨0, _⟩ => rows m c t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = rows m c t := by dsimp only [dats]
theorem after_1 (c : Dev nD) (t : Fin cfg0.N) : (dats m 0 c).after 1 t = iblk m c 1 t := by dsimp only [dats]

/-- The row block is fetched at every block: its buffer holds the array's rows there, and anything past them. -/
theorem before_0 (c : Dev nD) (t : Fin cfg0.N) (d) :
    (dats m 0 c).before 0 t d = win0_0.fill (grid0.coords t) d (iblk m c 0 t) := by
  unfold Dat.before; rw [if_pos (fetch0_0 t)]; rfl
/-- The weights are fetched once and left in place. -/
theorem before_1 (c : Dev nD) (t : Fin cfg0.N) (d) : (dats m 0 c).before 1 t d = iblk m c 1 t :=
  before0_1_of m (dats m 0 c) (A_eq m c 1) (after_1 m c) t d

/-- At every block: the body finds the array's rows (and anything past them), the weights, and anything in the
    result's buffer; it leaves the first two as they were, and something in the result's buffer. -/
theorem body_obligation (c : Dev nD) :
    BodyObligationLoose (dats m 0 c) (defs₀ (F := F)) Variants.none () Set.univ unnamedOut := fun t => by
  rw [bigSep_W0, bigSep_W0]
  sl_whnfR [defs₀, Defs.onTc]
  simp only [unnamedOut]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (Body.sound_kernel' (F := F) c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (rows m c t) = iblk m c 0 t := win0_0.cut_fill _ _ _
  isplitl [H0]
  · iexists d0
    rw [after_0]
    change _ ⊢ owns (c : Thread nD τ) (st0_0 t) fullShare (win0_0.fill (grid0.coords t) d0 (win0_0.cut (grid0.coords t) (rows m c t)))
    rw [hx]; try iexact H0
  isplitl [H1]
  · rw [after_1]; iexact H1
  · iexists _; iexact H2

set_option backward.isDefEq.respectTransparency.types false in
/-- Every weakly fair execution terminates; the argument arrays end as they were at the region's entry. -/
theorem run_main : θ_run defs (onTc (τ := τ) (main (F := F))) (s₀ m ρ)
    (Pipeline.RDat.FramePost (cfgs 0) (fun c => (dats m 0 c).toRForget unnamedOut) (V m)) :=
  Pipeline.RDat.θ_run_frame cfgs (0 : Fin 1) launch0 defs₀ Variants.none (fun c => (dats m 0 c).toRForget unnamedOut) m ρ main
    (hbody := fun c => (body_obligation m c).toRForget)
    (hshare := fun c => ((dats m 0 c).toRForget unnamedOut).share_full fun _ => rfl)
    (howed := fun _ _ => rfl) (V := V m) (hmain := hmain m Variants.none) (hA := A_eq m) (hΦ := fun _ _ => rfl)

/-- The two arguments end as they began: an input's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(Eq.mp (congrFun (((dats m 0 c).toRForget unnamedOut).ArrAt_in 0 rfl _) _) ((h c).1 0)).trans
          ((A_eq m c 0).trans (V_main_arg0 m c)),
       (Eq.mp (congrFun (((dats m 0 c).toRForget unnamedOut).ArrAt_in 1 rfl _) _) ((h c).1 1)).trans
          ((A_eq m c 1).trans (V_main_arg1 m c))⟩)
    (run_main m ρ)

end Cert.Kernel.FrameRun

end
-- ==== Proof.IdealBody.lean ====
/-
  The kernel body on any whole staging buffers. The body reads the whole row block `x` (16800 × 128) and the whole
  weight matrix `w` (128 × 128), reads the result buffer once without using the value, and stores the matrix
  product of the two — contracted over the second axis of each, into a zero accumulator — over the whole result
  buffer. So after the body the two input buffers hold what they held and the result buffer holds that product
  of them, whatever it held before.
-/
import proofs.«143191_g506806141100_cont_8to1_c_524_16_alg».proof.Proof.Gen.KernelIdeal.Frame
import proofs.«143191_g506806141100_cont_8to1_c_524_16_alg».proof.Proof.Gen.KernelIdeal.Skeleton
import Idealize.ShloMosaic.Lib.Pipeline.Value

set_option maxRecDepth 65536

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The whole row block as a rectangle of itself, and the whole weight matrix as one of itself. -/
abbrev rX : Rect S16800x128 := Rect.unit (s := S16800x128) ![0, 0] S16800x128.size inb_S16800x128_S16800x128_0_0
abbrev rW : Rect S128x128 := Rect.unit (s := S128x128) ![0, 0] S128x128.size inb_S128x128_S128x128_0_0

/-- Both rectangles start at the origin. -/
theorem origin : (![0, 0] : Fin 2 → Nat) = fun _ => 0 := funext fun a => by fin_cases a <;> rfl

/-- What the one store leaves in the result buffer, as the list of stores read back: the product of what the two
    loads read. -/
def stored (x : Vec F S16800x128 .f32) (w : Vec F S128x128 .f32) : Vec F S16800x128 .f32 :=
  View.canon [⟨rX, k0_pay1 (View.ld x rX) (View.ld w rW)⟩]

/-- The loads read the whole buffers and the store covers the whole result buffer: it holds the product. -/
theorem stored_eq (x : Vec F S16800x128 .f32) (w : Vec F S128x128 .f32) : stored x w = k0_pay1 x w := by
  unfold stored
  rw [View.canon_unit_zero origin, View.ld_unit_zero origin, View.ld_unit_zero origin]

/-- The one store covers the result buffer. -/
theorem cover (p : Vec F S16800x128 .f32) (y : S16800x128.Idx) :
    ∃ pc ∈ ([⟨rX, p⟩] : List (View.Piece (Elt F) S16800x128 .f32)), y ∈ pc.1.set :=
  ⟨⟨rX, p⟩, List.mem_singleton_self _, View.mem_set_unit_zero origin inb_S16800x128_S16800x128_0_0 y⟩

set_option maxHeartbeats 1000000 in
/-- The body's triple: from the row block at `x`, the weights at `w` and the result buffer at anything, the body
    runs to the same two and the result buffer at their product. -/
theorem sound_kernel (c : Dev nD) (E : Set ℕ) (i : grid0.Coords)
    (arg1 : Memref sig .tc .vmem S16800x128 .f32) (harg1 : arg1.IsWhole)
    (arg2 : Memref sig .tc .vmem S128x128 .f32) (harg2 : arg2.IsWhole)
    (arg3 : Memref sig .tc .vmem S16800x128 .f32) (harg3 : arg3.IsWhole)
    (x : Vec F S16800x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (stored x w)) -∗ K ⟨⟩))
      ⊢ wp frame (wpE (defs₀ (F := F)) Variants.none c none) E (cc0__mm_kernel i arg1 harg1 arg2 harg2 arg3 harg3) K := by
  simp only [cc0__mm_kernel_eq_skeleton]; unfold cc0__mm_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The same, the result buffer's contents written as the product. -/
theorem sound_kernel' (c : Dev nD) (E : Set ℕ) (i : grid0.Coords)
    (arg1 : Memref sig .tc .vmem S16800x128 .f32) (harg1 : arg1.IsWhole)
    (arg2 : Memref sig .tc .vmem S128x128 .f32) (harg2 : arg2.IsWhole)
    (arg3 : Memref sig .tc .vmem S16800x128 .f32) (harg3 : arg3.IsWhole)
    (x : Vec F S16800x128 .f32) (w : Vec F S128x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (k0_pay1 x w)) -∗ K ⟨⟩))
      ⊢ wp frame (wpE (defs₀ (F := F)) Variants.none c none) E (cc0__mm_kernel i arg1 harg1 arg2 harg2 arg3 harg3) K := by
  rw [← stored_eq x w]
  exact sound_kernel c E i arg1 harg1 arg2 harg2 arg3 harg3 x w K

end Cert.KernelIdeal.Body

end
-- ==== Proof.IdealPayload.lean ====
/-
  The body's product read at an entry, over the extended reals. Entry (r, j) of the product of a row block `x`
  (16800 × 128) with the weights `w` (128 × 128), contracted over the second axis of each into a zero accumulator,
  is the sum over the 128 positions k of x[r, k] · w[j, k]: it reads row r of `x` and row j of `w` and nothing else.
-/
import proofs.«143191_g506806141100_cont_8to1_c_524_16_alg».proof.Proof.Gen.KernelIdeal.Skeleton
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

local notation "dims" => dot_S16800x128_S128x128_S16800x128_1_1_0_0_n_n

/-- The left operand is read at the output's row, -/
theorem lhs_row (i : S16800x128.Idx) (q : DotDims.contr dims |>.Idx) : (DotDims.lhsIdx dims i q 0).val = (i 0).val := by
  unfold DotDims.lhsIdx
  rw [dif_neg (show ¬(0 : Fin S16800x128.rank) ∈ DotDims.lhsBatch dims by decide),
    dif_pos (show (0 : Fin S16800x128.rank) ∈ DotDims.lhsNonContracting dims by decide)]
  rfl
/-- at the contraction position; -/
theorem lhs_pos (i : S16800x128.Idx) (q : DotDims.contr dims |>.Idx) : (DotDims.lhsIdx dims i q 1).val = (q ⟨0, by decide⟩).val :=
  DotDims.lhsIdx_val_of_single dims rfl i q
/-- the right operand at the row the output's column names, -/
theorem rhs_row (i : S16800x128.Idx) (q : DotDims.contr dims |>.Idx) : (DotDims.rhsIdx dims i q 0).val = (i 1).val := by
  unfold DotDims.rhsIdx
  rw [dif_neg (show ¬(0 : Fin S128x128.rank) ∈ DotDims.rhsBatch dims by decide),
    dif_pos (show (0 : Fin S128x128.rank) ∈ DotDims.rhsNonContracting dims by decide)]
  rfl
/-- at the contraction position. -/
theorem rhs_pos (i : S16800x128.Idx) (q : DotDims.contr dims |>.Idx) : (DotDims.rhsIdx dims i q 1).val = (q ⟨0, by decide⟩).val :=
  DotDims.rhsIdx_val_of_single dims rfl i q

/-- Entry (r, j) of the body's product is the dot product of row r of the block with row j of the weights. -/
theorem pay_apply (x : Vec Ideal S16800x128 .f32) (w : Vec Ideal S128x128 .f32) (r : Fin 16800) (j : Fin 128) :
    k0_pay1 (F := Ideal) x w (ix2 r j) = ∑ k : Fin 128, x (ix2 r k) * w (ix2 j k) := by
  unfold k0_pay1
  simp only [matmul]
  rw [Ideal.matmul_constant_zero_apply, ← Equiv.sum_comp (contrEquiv1 dims 128 rfl rfl).symm]
  refine Finset.sum_congr rfl fun k _ => ?_
  have hk := contrEquiv1_symm_val dims 128 rfl rfl k
  have el : DotDims.lhsIdx dims (ix2 r j) ((contrEquiv1 dims 128 rfl rfl).symm k) = ix2 r k := funext fun a => Fin.ext (by
    match a with
    | ⟨0, _⟩ => exact lhs_row _ _
    | ⟨1, _⟩ => exact (lhs_pos _ _).trans hk)
  have er : DotDims.rhsIdx dims (ix2 r j) ((contrEquiv1 dims 128 rfl rfl).symm k) = ix2 j k := funext fun a => Fin.ext (by
    match a with
    | ⟨0, _⟩ => exact rhs_row _ _
    | ⟨1, _⟩ => exact (rhs_pos _ _).trans hk)
  rw [el, er]

/-- So two row blocks that agree on row r give products that agree on row r. -/
theorem pay_row_congr (x x' : Vec Ideal S16800x128 .f32) (w : Vec Ideal S128x128 .f32) (r : Fin 16800) (j : Fin 128)
    (h : ∀ k : Fin 128, x (ix2 r k) = x' (ix2 r k)) :
    k0_pay1 (F := Ideal) x w (ix2 r j) = k0_pay1 (F := Ideal) x' w (ix2 r j) := by
  rw [pay_apply, pay_apply]
  exact Finset.sum_congr rfl fun k _ => by rw [h k]

end Cert.KernelIdeal.Payload

end
-- ==== Proof.IdealData.lean ====
/-
  The pipeline's proof data over the extended reals, and the body obligation.

  The 100000 rows are cut into six blocks of 16800 rows; the last block has only 16000 rows inside the array, and
  the other 800 rows of its staging buffer hold values nothing names. At each block the body stores the product of
  the staged row block with the weights. A row of that product reads only the same row of the row block, so the
  rows of the result inside the array do not depend on what the 800 unnamed rows hold: what is written back at a
  block is the product of the array's rows there with the weights, and that is all the obligation states.
-/
import proofs.«143191_g506806141100_cont_8to1_c_524_16_alg».proof.Proof.IdealBody
import proofs.«143191_g506806141100_cont_8to1_c_524_16_alg».proof.Proof.IdealPayload
import proofs.«143191_g506806141100_cont_8to1_c_524_16_alg».proof.Proof.Gen.KernelIdeal.Points
import Idealize.ShloMosaic.Lib.Pipeline.Frame

set_option maxRecDepth 65536

noncomputable section

namespace Cert.KernelIdeal.Data

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## Where the blocks lie -/

/-- At every block the row block and the result block are cut alike, and neither is cut across a row. -/
theorem cuts : ∀ t : Fin cfg0.N,
    win0_2.xsize (grid0.coords t) 0 = win0_0.xsize (grid0.coords t) 0
    ∧ win0_0.xsize (grid0.coords t) 1 = 128 ∧ win0_2.xsize (grid0.coords t) 1 = 128 :=
  (by decide +kernel : ∀ t : Fin grid0.N,
    win0_2.xsize (grid0.coords t) 0 = win0_0.xsize (grid0.coords t) 0
    ∧ win0_0.xsize (grid0.coords t) 1 = 128 ∧ win0_2.xsize (grid0.coords t) 1 = 128)

/-- The result is never fetched. -/
theorem fetch_2 : ∀ t : Fin cfg0.N, (cfg0.win 2).fetch t = false :=
  (by decide +kernel : ∀ t : Fin grid0.N, win0_2.fetch t = false)

/-! ## The proof data -/

/-- The row block at block `t`: the array's rows there, filled out past the array's end with zeros (a choice
    nothing reads). -/
def rows (c : Dev nD) (t : Fin cfg0.N) : Vec Ideal S16800x128 .f32 :=
  win0_0.fill (grid0.coords t) (fun _ => (0 : EReal)) (iblk m c 0 t)

/-- After the body at block `t`: the row block's buffer holds the row block, the weights' buffer the weights, the
    result's buffer their product. -/
def dats (_ : Fin 1) (c : Dev nD) : Dat τ (Elt Ideal) Unit ℕ (UR sig nD τ) ℕ cfg0 c where
  A w := V m c (Pipeline.arrRef spec0 w)
  after w t := match w with
    | ⟨0, _⟩ => rows m c t
    | ⟨1, _⟩ => iblk m c 1 t
    | ⟨2, _⟩ => k0_pay1 (F := Ideal) (rows m c t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = rows m c t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = k0_pay1 (F := Ideal) (rows m c t) (iblk m c 1 t) := by dsimp only [dats]

/-- The row block is fetched at every block: its buffer holds the array's rows there, and anything past them. -/
theorem before_0 (c : Dev nD) (t : Fin cfg0.N) (d) :
    (dats m 0 c).before 0 t d = win0_0.fill (grid0.coords t) d (iblk m c 0 t) := by
  unfold Dat.before; rw [if_pos (fetch0_0 t)]; rfl
/-- The weights are fetched once and left in place. -/
theorem before_1 (c : Dev nD) (t : Fin cfg0.N) (d) : (dats m 0 c).before 1 t d = iblk m c 1 t :=
  before0_1_of m (dats m 0 c) (A_eq m c 1) (after_1 m c) t d
/-- The result's buffer holds anything: it was just written back, or never written. -/
theorem before_2 (c : Dev nD) (t : Fin cfg0.N) (d) : (dats m 0 c).before 2 t d = d := by
  unfold Dat.before
  rw [if_neg (by rw [fetch_2 t]; exact Bool.false_ne_true)]
  by_cases h0 : t.val = 0
  · rw [if_pos h0]
  · rw [if_neg h0]; exact if_pos (flush0_2 _)

/-! ## Rows inside the array do not see the rows past it -/

/-- A row inside the array of a filled-out row block is the array's row, whatever filled it out. -/
theorem fill_row (t : Fin cfg0.N) (d d' : Vec Ideal S16800x128 .f32) (g) (r : Fin 16800)
    (hr : r.val < win0_0.xsize (grid0.coords t) 0) (k : Fin 128) :
    win0_0.fill (grid0.coords t) d g (ix2 r k) = win0_0.fill (grid0.coords t) d' g (ix2 r k) := by
  have hm : win0_0.moved (grid0.coords t) (ix2 r k) = true :=
    (win0_0.moved_iff (grid0.coords t) (ix2 r k)).mpr fun a => by
      match a with
      | ⟨0, _⟩ => exact hr
      | ⟨1, _⟩ => exact (show k.val < win0_0.xsize (grid0.coords t) 1 by rw [(cuts t).2.1]; exact k.isLt)
  unfold Window.fill
  rw [dif_pos hm, dif_pos hm]

/-- So the product's rows inside the array are the same for two row blocks that agree on the rows inside it. -/
theorem cut_pay (t : Fin cfg0.N) (x x' : Vec Ideal S16800x128 .f32) (w : Vec Ideal S128x128 .f32)
    (h : ∀ r : Fin 16800, r.val < win0_0.xsize (grid0.coords t) 0 → ∀ k : Fin 128, x (ix2 r k) = x' (ix2 r k)) :
    win0_2.cut (grid0.coords t) (k0_pay1 (F := Ideal) x w) = win0_2.cut (grid0.coords t) (k0_pay1 (F := Ideal) x' w) := by
  funext j
  show k0_pay1 (F := Ideal) x w (win0_2.xinj (grid0.coords t) j) = k0_pay1 (F := Ideal) x' w (win0_2.xinj (grid0.coords t) j)
  rw [eq_ix2 (win0_2.xinj (grid0.coords t) j)]
  refine Payload.pay_row_congr x x' w _ _ (h _ ?_)
  have hj : (j 0).val < win0_2.xsize (grid0.coords t) 0 := (j 0).isLt
  rw [(cuts t).1] at hj
  exact hj

/-! ## The body obligation -/

/-- At every block: the body finds the array's rows (and anything past them), the weights, and anything in the
    result's buffer; it leaves the first two and the product, whose rows inside the array are the ones stated. -/
theorem body_obligation (c : Dev nD) :
    BodyObligationLoose (dats m 0 c) (defs₀ (F := Ideal)) Variants.none () Set.univ := fun t => by
  rw [bigSep_W0, bigSep_W0]
  sl_whnfR [defs₀, Defs.onTc]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (Body.sound_kernel' (F := Ideal) c Set.univ (grid0.coords t) _ _ _ _ _ _
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have hx : win0_0.cut (grid0.coords t) (rows m c t) = iblk m c 0 t := win0_0.cut_fill _ _ _
  have hp : win0_2.cut (grid0.coords t) (k0_pay1 (F := Ideal) (win0_0.fill (grid0.coords t) d0 (iblk m c 0 t)) (iblk m c 1 t))
      = win0_2.cut (grid0.coords t) (k0_pay1 (F := Ideal) (rows m c t) (iblk m c 1 t)) :=
    cut_pay t _ _ _ fun r hr k => fill_row t _ _ _ r hr k
  isplitl [H0]
  · iexists d0
    rw [after_0]
    change _ ⊢ owns (c : Thread nD τ) (st0_0 t) fullShare (win0_0.fill (grid0.coords t) d0 (win0_0.cut (grid0.coords t) (rows m c t)))
    rw [hx]; try iexact H0
  isplitl [H1]
  · rw [after_1]; iexact H1
  · iexists k0_pay1 (F := Ideal) (win0_0.fill (grid0.coords t) d0 (iblk m c 0 t)) (iblk m c 1 t)
    rw [after_2]
    change _ ⊢ owns (Val := Elt Ideal) (c : Thread nD τ) (st0_2 t) fullShare ((win0_2.fill (α := EReal) (grid0.coords t)
      (k0_pay1 (F := Ideal) (win0_0.fill (grid0.coords t) d0 (iblk m c 0 t)) (iblk m c 1 t))
      (win0_2.cut (α := EReal) (grid0.coords t) (k0_pay1 (F := Ideal) (rows m c t) (iblk m c 1 t)))) :
        (cfg0.win 2).block.Idx → Elt Ideal (cfg0.win 2).elt)
    rw [← hp, win0_2.fill_cut]; try iexact H2

/-! ## The run -/

set_option backward.isDefEq.respectTransparency.types false in
/-- Every weakly fair execution terminates; each array of the pipeline ends at what the write-backs leave, and
    nothing else changes. -/
theorem run_main : θ_run defs (onTc (τ := τ) (main (F := Ideal))) (s₀ m ρ) (Pipeline.FramePost cfgs (dats m) 0 (V m)) :=
  Pipeline.θ_run_frame cfgs (dats m) 0 launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The two arguments end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Data

end
-- ==== Proof.Spec.lean ====
/-
  The specification both programs are compared with: for a matrix `x` of 100000 rows and a matrix `w` of 128 rows,
  each row 128 entries long, entry (r, j) of the result is the dot product of row r of `x` with row j of `w` —
  the product of `x` with the transpose of `w`, over the extended reals.
-/
import Idealize.ShloMosaic.PureOps.Ideal
import Idealize.ShloMosaic.Lib.ValueIdx

noncomputable section

namespace Cert.RowDot

open Idealize.ShloMosaic Idealize.ShloMosaic.ValueIdx

/-- Entry (r, j): the sum over the 128 positions k of x[r, k] · w[j, k]. -/
def G (x : FVec Ideal (⟨2, ![100000, 128]⟩ : Shape) .f32) (w : FVec Ideal (⟨2, ![128, 128]⟩ : Shape) .f32) :
    FVec Ideal (⟨2, ![100000, 128]⟩ : Shape) .f32 :=
  fun i => ∑ k : Fin 128, x (ix2 (i 0) k) * w (ix2 (i 1) k)

theorem G_apply (x : FVec Ideal (⟨2, ![100000, 128]⟩ : Shape) .f32) (w : FVec Ideal (⟨2, ![128, 128]⟩ : Shape) .f32)
    (r : Fin 100000) (j : Fin 128) : G x w (ix2 r j) = ∑ k : Fin 128, x (ix2 r k) * w (ix2 j k) := rfl

end Cert.RowDot

end
-- ==== Proof.IdealFinal.lean ====
/-
  The result array after the run is the specification of the two argument arrays.

  Block `t` of the result covers rows 16800·t up to 16800·t + 16800, cut at row 100000. What is written back
  there is, row by row, the dot products of the array's rows 16800·t + r with the rows of the weights: the block
  of the specification. Every row below 100000 lies in the block numbered by its quotient by 16800, so the six
  write-backs cover the array.
-/
import proofs.«143191_g506806141100_cont_8to1_c_524_16_alg».proof.Proof.IdealData
import proofs.«143191_g506806141100_cont_8to1_c_524_16_alg».proof.Proof.Spec

set_option maxRecDepth 65536

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Cert.KernelIdeal.Data

variable (m : (ℓ : Loc nD τ sig) → Buf (Elt Ideal) ℓ) (ρ : Dev nD → PrngReg)

/-- The two argument arrays as launched, on core `c`, -/
abbrev xArr (c : Dev nD) : FVec Ideal S100000x128 .f32 := V m c main_arg0
abbrev wArr (c : Dev nD) : FVec Ideal S128x128 .f32 := V m c main_arg1

/-- and the specification of them. -/
abbrev spec (c : Dev nD) : Buf (Elt Ideal) ((cfg0.win 2).arr.view.loc (c.tc : Thread nD τ)) :=
  Cert.RowDot.G (xArr m c) (wArr m c)

/-- Where block `t` of each window starts: the row block and the result block at row 16800·t, column 0; the
    weights at the origin. The part of the result block inside the array ends at row 100000 or at the block's end,
    whichever comes first, and spans the columns. -/
theorem starts : ∀ t : Fin cfg0.N,
    win0_0.index t 0 = t.val ∧ win0_0.index t 1 = 0 ∧ win0_2.index t 0 = t.val ∧ win0_2.index t 1 = 0
    ∧ win0_1.index t 0 = 0 ∧ win0_1.index t 1 = 0
    ∧ t.val * 16800 + win0_2.xsize (grid0.coords t) 0 = min 100000 ((t.val + 1) * 16800)
    ∧ win0_2.xsize (grid0.coords t) 1 = 128 :=
  (by decide +kernel : ∀ t : Fin grid0.N,
    win0_0.index t 0 = t.val ∧ win0_0.index t 1 = 0 ∧ win0_2.index t 0 = t.val ∧ win0_2.index t 1 = 0
    ∧ win0_1.index t 0 = 0 ∧ win0_1.index t 1 = 0
    ∧ t.val * 16800 + win0_2.xsize (grid0.coords t) 0 = min 100000 ((t.val + 1) * 16800)
    ∧ win0_2.xsize (grid0.coords t) 1 = 128)

/-- What block `t` writes back is block `t` of the specification. -/
theorem flushed_eq (c : Dev nD) (t : Fin cfg0.N) :
    (dats m 0 c).flushed 2 t = ((cfg0.win 2).blk t).view.read (Elt Ideal) (spec m c) := by
  obtain ⟨s00, s01, s20, s21, s10, s11, -, -⟩ := starts t
  show win0_2.cut (grid0.coords t) ((dats m 0 c).after 2 t) = _
  rw [after_2]
  funext j
  show k0_pay1 (F := Ideal) (rows m c t) (iblk m c 1 t) (win0_2.xinj (grid0.coords t) j) = _
  have hrq : win0_2.xinj (grid0.coords t) j
      = ix2 (n0 := 16800) (n1 := 128) (win0_2.xinj (grid0.coords t) j 0) (win0_2.xinj (grid0.coords t) j 1) := eq_ix2 _
  rw [hrq]
  refine (Payload.pay_apply _ _ _ _).trans ?_
  rw [View.read_apply]
  show _ = ∑ k : Fin 128, xArr m c (ix2 (((win0_2.blk t).view.emb j) 0) k) * wArr m c (ix2 (((win0_2.blk t).view.emb j) 1) k)
  refine Finset.sum_congr rfl fun k _ => ?_
  have hr : (win0_2.xinj (grid0.coords t) j 0).val < win0_0.xsize (grid0.coords t) 0 := by
    have hj : (j 0).val < win0_2.xsize (grid0.coords t) 0 := (j 0).isLt
    rw [(cuts t).1] at hj
    exact hj
  have hm : win0_0.moved (grid0.coords t) (ix2 (win0_2.xinj (grid0.coords t) j 0) k) = true :=
    (win0_0.moved_iff (grid0.coords t) _).mpr fun a => by
      match a with
      | ⟨0, _⟩ => exact hr
      | ⟨1, _⟩ => exact (show k.val < win0_0.xsize (grid0.coords t) 1 by rw [(cuts t).2.1]; exact k.isLt)
  have ex : rows m c t (ix2 (win0_2.xinj (grid0.coords t) j 0) k)
      = xArr m c (ix2 (((win0_2.blk t).view.emb j) 0) k) := by
    unfold rows Window.fill
    rw [dif_pos hm]
    unfold iblk
    rw [View.read_apply]
    show xArr m c (((cfg0.win 0).blk t).view.emb _) = xArr m c _
    refine congrArg (xArr m c) (funext fun a => Fin.ext ?_)
    match a with
    | ⟨0, _⟩ =>
      show win0_0.index t 0 * 16800 + 1 * (j 0).val = win0_2.index t 0 * 16800 + 1 * (j 0).val
      rw [s00, s20]
    | ⟨1, _⟩ =>
      show win0_0.index t 1 * 128 + 1 * k.val = k.val
      rw [s01]; omega
  have ew : iblk m c 1 t (ix2 (win0_2.xinj (grid0.coords t) j 1) k)
      = wArr m c (ix2 (((win0_2.blk t).view.emb j) 1) k) := by
    unfold iblk
    rw [View.read_apply]
    show wArr m c (((cfg0.win 1).blk t).view.emb _) = wArr m c _
    refine congrArg (wArr m c) (funext fun a => Fin.ext ?_)
    match a with
    | ⟨0, _⟩ =>
      show win0_1.index t 0 * 128 + 1 * (j 1).val = win0_2.index t 1 * 128 + 1 * (j 1).val
      rw [s10, s21]
    | ⟨1, _⟩ =>
      show win0_1.index t 1 * 128 + 1 * k.val = k.val
      rw [s11]; omega
  exact congrArg₂ (· * ·) ex ew

/-- An entry of the result array lies in block `t` exactly when its row does. -/
theorem mem_blk (t : Fin cfg0.N) (i : S100000x128.Idx) :
    i ∈ (win0_2.blk t).view.set ↔ t.val * 16800 ≤ (i 0).val ∧ (i 0).val < min 100000 ((t.val + 1) * 16800) := by
  obtain ⟨-, -, s20, s21, -, -, send, scol⟩ := starts t
  show i ∈ ((View.whole main_v0).slice (win0_2.rect t)).set ↔ _
  rw [View.set_slice_whole, Rect.mem_set_unit]
  have h1 : (i 1 : Nat) < 128 := (i 1).isLt
  constructor
  · intro h
    have h0 := h 0
    change win0_2.index t 0 * 16800 ≤ (i 0 : Nat) ∧ (i 0 : Nat) < win0_2.index t 0 * 16800 + win0_2.xsize (grid0.coords t) 0 at h0
    rw [s20, send] at h0
    exact h0
  · intro h a
    match a with
    | ⟨0, _⟩ =>
      change win0_2.index t 0 * 16800 ≤ (i 0 : Nat) ∧ (i 0 : Nat) < win0_2.index t 0 * 16800 + win0_2.xsize (grid0.coords t) 0
      rw [s20, send]; exact h
    | ⟨1, _⟩ =>
      change win0_2.index t 1 * 128 ≤ (i 1 : Nat) ∧ (i 1 : Nat) < win0_2.index t 1 * 128 + win0_2.xsize (grid0.coords t) 1
      rw [s21, scol]; omega

/-- Every entry lies in the block numbered by its row's quotient by 16800. -/
theorem cover (i : S100000x128.Idx) : ∃ t : Fin cfg0.N, (cfg0.win 2).flush t = true ∧ i ∈ ((cfg0.win 2).blk t).view.set := by
  have h0 : (i 0 : Nat) < 100000 := (i 0).isLt
  have hN : (i 0 : Nat) / 16800 < cfg0.N := by rw [show cfg0.N = 6 from N_0]; omega
  refine ⟨⟨(i 0 : Nat) / 16800, hN⟩, flush0_2 _, ?_⟩
  refine (mem_blk ⟨(i 0 : Nat) / 16800, hN⟩ i).mpr ?_
  show (i 0 : Nat) / 16800 * 16800 ≤ (i 0 : Nat) ∧ (i 0 : Nat) < min 100000 (((i 0 : Nat) / 16800 + 1) * 16800)
  omega

/-- The result array ends at the specification. -/
theorem final (c : Dev nD) : (dats m 0 c).arrAt 2 cfg0.N = spec m c :=
  (dats m 0 c).arrAt_eq_of_cover 2 (spec m c) (fun t _ => flushed_eq m c t) (cover)

/-- The run, with the result named: every weakly fair execution terminates with the result array at the
    specification of the argument arrays, and those unchanged. -/
theorem run : θ_run defs (onTc (τ := τ) (main (F := Ideal))) ⟨m, fun _ => 0, ρ⟩ (fun r => ∀ c : Dev nD,
      r.2.mem ((c.tc : Thread nD τ).loc main_v0)
        = Cert.RowDot.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 2).trans (final m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Final

end
-- ==== Proof.RefValue.lean ====
/-
  The reference computes the specification. It transposes `w` and contracts the second axis of `x` with the first
  axis of the transpose; entry (r, j) of that is the sum over k of x[r, k] · wᵀ[k, j], and wᵀ[k, j] is w[j, k].
-/
import proofs.«143191_g506806141100_cont_8to1_c_524_16_alg».proof.Proof.Gen.ReferenceIdeal.Read
import proofs.«143191_g506806141100_cont_8to1_c_524_16_alg».proof.Proof.Spec

noncomputable section

namespace Cert.ReferenceIdeal.RefValue

open Cert.ReferenceIdeal Cert.ReferenceIdeal.Gen Idealize.ShloMosaic Idealize.ShloMosaic.ValueIdx

/-- The reference's result, as a function of its two arguments, is the specification. -/
theorem result_eq (x : FVec Ideal S100000x128 .f32) (w : FVec Ideal S128x128 .f32) :
    Read.val_main_v1 (F := Ideal) x w = Cert.RowDot.G x w := by
  funext i
  rw [Read.val_main_v1_apply]
  refine Finset.sum_congr rfl fun k _ => ?_
  rw [Read.val_main_v0_apply]
  have el : Read.lidx_main_v1 i k = ix2 (i 0) k := funext fun a => by
    match a with | ⟨0, _⟩ => rfl | ⟨1, _⟩ => rfl
  have er : Read.idx_main_v0 (Read.ridx_main_v1 i k) = ix2 (i 1) k := funext fun a => by
    match a with | ⟨0, _⟩ => rfl | ⟨1, _⟩ => rfl
  rw [el, er]
  rfl

end Cert.ReferenceIdeal.RefValue

end
-- ==== Proof.lean ====
/-
  The kernel multiplies a matrix `x` of 100000 rows of 128 entries by the transpose of a 128 × 128 matrix `w`: it
  walks the rows in six blocks of 16800 (the last holds 16000 rows of the array; the rest of its buffer holds
  values nothing names), and at each block stores the product of the staged rows with `w`, contracted over the
  second axis of each. The reference transposes `w` and contracts `x`'s second axis with the transpose's first.

  Over the extended reals both results are, entry by entry, the dot product of a row of `x` with a row of `w`
  (`Cert.RowDot.G`). For the kernel: a row of a block's product reads only that row of the block, so the rows
  written back are those of the array's rows, whatever the unnamed rows hold, and the six write-backs cover the
  array. For the reference: the contraction read at an entry, with the transpose read at an index. No law of
  arithmetic is used beyond reading both sums term by term, so the precondition is never opened.

  The frames: the reference's is its run with the result dropped; the idealized kernel's is read off the same
  run that names its result; the printed kernel's is proved without naming what the result buffer holds, since
  at the word level the product of a block is not a row-by-row function the proof could cut at the array's end.
  The idealized kernel is the printed kernel's own text read over the extended reals: no operation was rewritten, so
  the fourth conjunct is trivial.
-/
import proofs.«143191_g506806141100_cont_8to1_c_524_16_alg».proof.Defs
import proofs.«143191_g506806141100_cont_8to1_c_524_16_alg».proof.Proof.Gen.Kernel
import proofs.«143191_g506806141100_cont_8to1_c_524_16_alg».proof.Proof.Gen.KernelIdeal
import proofs.«143191_g506806141100_cont_8to1_c_524_16_alg».proof.Proof.Gen.ReferenceIdeal
import proofs.«143191_g506806141100_cont_8to1_c_524_16_alg».proof.Proof.Gen.Pre_finite_inputs
import proofs.«143191_g506806141100_cont_8to1_c_524_16_alg».proof.Proof.Gen.ReferenceIdeal.Run
import proofs.«143191_g506806141100_cont_8to1_c_524_16_alg».proof.Proof.Gen.ReferenceIdeal.Read
import proofs.«143191_g506806141100_cont_8to1_c_524_16_alg».proof.Proof.KernelFrame
import proofs.«143191_g506806141100_cont_8to1_c_524_16_alg».proof.Proof.IdealFinal
import proofs.«143191_g506806141100_cont_8to1_c_524_16_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end and leaves `x` and `w` as they were. -/
theorem frame_kernel : Cert.frame_Kernel := fun m ρ _ => Cert.Kernel.FrameRun.frame (F := Bits) m ρ

/-- So does the idealized kernel. -/
theorem frame_ideal : Cert.frame_KernelIdeal := fun m ρ _ => Cert.KernelIdeal.Data.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the two texts: the statement is `True`. -/
theorem preserves : Cert.preserves_Kernel_KernelIdeal := trivial

/-- From memories that agree on `x` and `w`, both programs end with the result at the dot products of the rows of
    `x` with the rows of `w`. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v1_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
